-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x8192 : Shape := ⟨3, ![2, 64, 8192]⟩
abbrev S8192x64 : Shape := ⟨2, ![8192, 64]⟩
abbrev S64x64 : Shape := ⟨2, ![64, 64]⟩
abbrev S64x8192 : Shape := ⟨2, ![64, 8192]⟩
abbrev S_ : Shape := ⟨0, ![]⟩

class Facts : Prop where
  bcast_S_S2x64x8192 : S_.BroadcastsInDim S2x64x8192 (![] : Fin 0 → Fin S2x64x8192.rank)
  reducesTo_S2x64x8192_S_d0_1_2 : S2x64x8192.ReducesTo [0, 1, 2] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S64x64 : S_.BroadcastsInDim S64x64 (![] : Fin 0 → Fin S64x64.rank)
  reducesTo_S64x64_S_d0_1 : S64x64.ReducesTo [0, 1] S_
  bcast_S_S64x8192 : S_.BroadcastsInDim S64x8192 (![] : Fin 0 → Fin S64x8192.rank)
  reducesTo_S64x8192_S_d0_1 : S64x8192.ReducesTo [0, 1] S_

variable [Facts]

def fn_part1 {F : FTy → Type} [FloatOps F] (main_v13 : IVec S_ 1) (main_v16 : IVec S64x8192 1) : IVec S_ 1 :=
  let main_c_5 : IVec S_ 1 := constantI S_ 1 1#1
  let main_v17 : IVec S_ 1 := (fun x v => Host.reduce IntOp.andi x v reducesTo_S64x8192_S_d0_1 h_S_) main_v16 main_c_5
  let main_v18 : IVec S_ 1 := andi main_v13 main_v17
  main_v18

def fn {F : FTy → Type} [FloatOps F] (main_arg0 : FVec F S2x64x8192 .f32) (main_arg1 : FVec F S8192x64 .f32) (main_arg2 : FVec F S64x64 .f32) (main_arg3 : FVec F S64x8192 .f32) : IVec S_ 1 :=
  let main_v0 : FVec F S2x64x8192 .f32 := Host.absf main_arg0
  let main_cst : FVec F S_ .f32 := constant S_ .f32 0x7F800000#32
  let main_v1 : FVec F S2x64x8192 .f32 := broadcastInDim S2x64x8192 ![] bcast_S_S2x64x8192 main_cst
  let main_v2 : IVec S2x64x8192 1 := cmpf .olt main_v0 main_v1
  let main_c : IVec S_ 1 := constantI S_ 1 1#1
  let main_v3 : IVec S_ 1 := (fun x v => Host.reduce IntOp.andi x v reducesTo_S2x64x8192_S_d0_1_2 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x8192 .f32 := Host.absf main_arg3
  let main_cst_4 : FVec F S_ .f32 := constant S_ .f32 0x7F800000#32
  let main_v15 : FVec F S64x8192 .f32 := broadcastInDim S64x8192 ![] bcast_S_S64x8192 main_cst_4
  let main_v16 : IVec S64x8192 1 := cmpf .olt main_v14 main_v15
  fn_part1 (F := F) main_v13 main_v16
-- ==== Kernel.lean ====
abbrev S2x64x8192 : Shape := ⟨3, ![2, 64, 8192]⟩
abbrev S8192x64 : Shape := ⟨2, ![8192, 64]⟩
abbrev S64x64 : Shape := ⟨2, ![64, 64]⟩
abbrev S64x8192 : Shape := ⟨2, ![64, 8192]⟩
abbrev S128x8192 : Shape := ⟨2, ![128, 8192]⟩
abbrev S128x64 : Shape := ⟨2, ![128, 64]⟩
abbrev S64x2048 : Shape := ⟨2, ![64, 2048]⟩
abbrev S128x2048 : Shape := ⟨2, ![128, 2048]⟩

abbrev nBuf : Space → Nat
  | .hbm => 10
  | .vmem => 9
  | .smem => 0
  | _ => 0

abbrev bufTy : (tb : Table) → Fin (tcTables nBuf tb) → BufTy
  | .hbm, ⟨0, _⟩ => ⟨S2x64x8192, .f32⟩
  | .hbm, ⟨1, _⟩ => ⟨S8192x64, .f32⟩
  | .hbm, ⟨2, _⟩ => ⟨S64x64, .f32⟩
  | .hbm, ⟨3, _⟩ => ⟨S64x8192, .f32⟩
  | .hbm, ⟨4, _⟩ => ⟨S128x8192, .f32⟩
  | .hbm, ⟨5, _⟩ => ⟨S128x64, .bf16⟩
  | .hbm, ⟨6, _⟩ => ⟨S64x8192, .f32⟩
  | .hbm, ⟨7, _⟩ => ⟨S64x8192, .bf16⟩
  | .hbm, ⟨8, _⟩ => ⟨S128x8192, .f32⟩
  | .hbm, ⟨9, _⟩ => ⟨S2x64x8192, .f32⟩
  | .local _ .vmem, ⟨0, _⟩ => ⟨S128x8192, .f32⟩
  | .local _ .vmem, ⟨1, _⟩ => ⟨S64x8192, .f32⟩
  | .local _ .vmem, ⟨2, _⟩ => ⟨S64x64, .f32⟩
  | .local _ .vmem, ⟨3, _⟩ => ⟨S128x64, .bf16⟩
  | .local _ .vmem, ⟨4, _⟩ => ⟨S128x64, .bf16⟩
  | .local _ .vmem, ⟨5, _⟩ => ⟨S64x2048, .bf16⟩
  | .local _ .vmem, ⟨6, _⟩ => ⟨S64x2048, .bf16⟩
  | .local _ .vmem, ⟨7, _⟩ => ⟨S128x2048, .f32⟩
  | .local _ .vmem, ⟨8, _⟩ => ⟨S128x2048, .f32⟩
  | _, _ => ⟨S2x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x64 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S2x64x8192_S128x8192 : S2x64x8192.ShapeCasts S128x8192
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  inb_S64x64_S64x64_0_0 : ∀ a, (![0, 0] : Fin 2 → Nat) a + S64x64.size a ≤ S64x64.size a
  h_S64x64 : 0 < S64x64.numel
  inb_S128x64_S128x64_0_0 : ∀ a, (![0, 0] : Fin 2 → Nat) a + S128x64.size a ≤ S128x64.size a
  h_S128x64 : 0 < S128x64.numel
  packedbf16_S128x64_S128x64_0_0 : (Rect.unit (s := S128x64) ![0, 0] S128x64.size inb_S128x64_S128x64_0_0).PackedRows (EltTy.packing .bf16)
  transposes_S8192x64_S64x8192_1_0 : S8192x64.Transposes [1, 0] S64x8192
  shapeCasts_S128x64_S128x64 : S128x64.ShapeCasts S128x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S128x2048_S128x2048_0_0 : ∀ a, (![0, 0] : Fin 2 → Nat) a + S128x2048.size a ≤ S128x2048.size a
  h_S128x2048 : 0 < S128x2048.numel
  shapeCasts_S128x8192_S2x64x8192 : S128x8192.ShapeCasts S2x64x8192
  dot_S128x8192_S64x8192_S128x64_1_1_0_0_n_n_wf : DotDims.WF S128x8192 S64x8192 S128x64 [1] [1] [0] [0] [] []
  dot_S128x64_S64x64_S128x64_1_1_0_0_n_n_wf : DotDims.WF S128x64 S64x64 S128x64 [1] [1] [0] [0] [] []
  dot_S128x64_S64x2048_S128x2048_1_0_0_1_n_n_wf : DotDims.WF S128x64 S64x2048 S128x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S128x8192.size a
  hwx0_0 : ∀ i : grid0.Coords, EltTy.bits .f32 = 32 ∨ (Rect.block (s := S128x8192) S128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x8192.size a
  hwx0_1 : ∀ i : grid0.Coords, EltTy.bits .f32 = 32 ∨ (Rect.block (s := S64x8192) S64x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S128x64.size a
  hwx1_0 : ∀ i : grid1.Coords, EltTy.bits .bf16 = 32 ∨ (Rect.block (s := S128x64) S128x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x2048.size a ≤ S64x8192.size a
  hwx1_1 : ∀ i : grid1.Coords, EltTy.bits .bf16 = 32 ∨ (Rect.block (s := S64x8192) S64x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S128x8192.size a
  hwx1_2 : ∀ i : grid1.Coords, EltTy.bits .f32 = 32 ∨ (Rect.block (s := S128x8192) S128x2048.size (cc1_transform_2 i) (hinb1_2 i)).WholeWords (EltTy.packing .f32)

variable [Facts₀]

def dot_S128x8192_S64x8192_S128x64_1_1_0_0_n_n : DotDims S128x8192 S64x8192 S128x64 where
  lhsContracting := [1]
  rhsContracting := [1]
  lhsNonContracting := [0]
  rhsNonContracting := [0]
  lhsBatch := []
  rhsBatch := []
  wf := dot_S128x8192_S64x8192_S128x64_1_1_0_0_n_n_wf
def dot_S128x64_S64x64_S128x64_1_1_0_0_n_n : DotDims S128x64 S64x64 S128x64 where
  lhsContracting := [1]
  rhsContracting := [1]
  lhsNonContracting := [0]
  rhsNonContracting := [0]
  lhsBatch := []
  rhsBatch := []
  wf := dot_S128x64_S64x64_S128x64_1_1_0_0_n_n_wf
def dot_S128x64_S64x2048_S128x2048_1_0_0_1_n_n : DotDims S128x64 S64x2048 S128x2048 where
  lhsContracting := [1]
  rhsContracting := [0]
  lhsNonContracting := [0]
  rhsNonContracting := [1]
  lhsBatch := []
  rhsBatch := []
  wf := dot_S128x64_S64x2048_S128x2048_1_0_0_1_n_n_wf

abbrev win0_0 : Pipeline.Window sig grid0 :=
  Pipeline.Window.ofSpec (Memref.whole main_v0) S128x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S128x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x64x8192 : Shape := ⟨3, ![2, 64, 8192]⟩
abbrev S8192x64 : Shape := ⟨2, ![8192, 64]⟩
abbrev S64x64 : Shape := ⟨2, ![64, 64]⟩
abbrev S64x8192 : Shape := ⟨2, ![64, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S2x64x8192, .f32⟩
  | .hbm, ⟨1, _⟩ => ⟨S8192x64, .f32⟩
  | .hbm, ⟨2, _⟩ => ⟨S64x64, .f32⟩
  | .hbm, ⟨3, _⟩ => ⟨S64x8192, .f32⟩
  | .hbm, ⟨4, _⟩ => ⟨S8192x64, .f32⟩
  | .hbm, ⟨5, _⟩ => ⟨S8192x8192, .f32⟩
  | .hbm, ⟨6, _⟩ => ⟨S2x64x8192, .f32⟩
  | _, _ => ⟨S2x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []
  dot_S2x64x8192_S8192x8192_S2x64x8192_2_1_01_0_n_n_wf : DotDims.WF S2x64x8192 S8192x8192 S2x64x8192 [2] [1] [0, 1] [0] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S2x64x8192_S8192x8192_S2x64x8192_2_1_01_0_n_n : DotDims S2x64x8192 S8192x8192 S2x64x8192 where
  lhsContracting := [2]
  rhsContracting := [1]
  lhsNonContracting := [0, 1]
  rhsNonContracting := [0]
  lhsBatch := []
  rhsBatch := []
  wf := dot_S2x64x8192_S8192x8192_S2x64x8192_2_1_01_0_n_n_wf

class Facts : Prop extends Facts₀ where

variable [Facts]
-- ==== Proof.Finite.lean ====
/-
  The precondition read back: every entry of the four argument arrays is a real number.

  The printed predicate is, per argument, "all of |a| < +inf", the four answers joined by `and`. An extended real
  whose absolute value max(a, -a) is below +inf is neither infinity, hence a real.
-/
import proofs.«156437_j34325378629967_2_alg».proof.Pre_finite_inputs
import proofs.«156437_j34325378629967_2_alg».proof.Proof.Gen.Pre_finite_inputs
import Idealize.ShloMosaic.PureOps.Ideal
import Idealize.ShloMosaic.Lib.ValueIdx
import Idealize.ShloMosaic.Lib.ReduceAll

noncomputable section

namespace Cert.FiniteArgs

open Idealize.ShloMosaic Cert.Pre_finite_inputs

/-- The f32 word with all exponent bits set and no fraction denotes +inf. -/
theorem inf_word : Ideal.ofBits .f32 0x7F800000#32 = (⊤ : EReal) := by
  simp [Ideal.ofBits, Ideal.ieee]

/-- An extended real with max(a, -a) < +inf is a real. -/
theorem real_of_abs_lt (a : EReal) (h : Ideal.cmp .olt (max a (-a)) (Ideal.ofBits .f32 0x7F800000#32) = 1#1) :
    ∃ r : ℝ, a = (r : EReal) := by
  rw [inf_word] at h
  induction a using EReal.rec with
  | bot => simp [Ideal.cmp] at h
  | coe r => exact ⟨r, rfl⟩
  | top => simp [Ideal.cmp] at h

instance : Subsingleton S_.Idx := ⟨fun a b => funext fun d => d.elim0⟩

variable [Cert.Pre_finite_inputs.Facts]

/-- Under the precondition each argument array holds reals only. -/
theorem real_entries (a0 : FVec Ideal S2x64x8192 .f32) (a1 : FVec Ideal S8192x64 .f32) (a2 : FVec Ideal S64x64 .f32)
    (a3 : FVec Ideal S64x8192 .f32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt (a0 i) (Host.reduce_andi_all _ _ _ _ _ h0' i),
    fun i => real_of_abs_lt (a1 i) (Host.reduce_andi_all _ _ _ _ _ h1 i),
    fun i => real_of_abs_lt (a2 i) (Host.reduce_andi_all _ _ _ _ _ h2 i),
    fun i => real_of_abs_lt (a3 i) (Host.reduce_andi_all _ _ _ _ _ h3 i)⟩

end Cert.FiniteArgs

end
-- ==== Proof.LibLowRankChain.lean ====
/-
  A rank-factored matrix chain re-associated, on real-valued extended reals.

  For a row `x` over `M`, factors `R : Q × M`, `U : K × Q` and a row `C` over `K`, the two bracketings
      Σ_r (Σ_q (Σ_m x m · R q m) · U r q) · C r      (contract the long axis first, then the two short ones)
      Σ_m x m · (Σ_q (Σ_r C r · U r q) · R q m)      (build the dense matrix first, contract the long axis last)
  are one triple sum Σ_{m,q,r} x m · R q m · U r q · C r. Over ℝ this is distributivity and a reordering of finite
  sums; on the extended reals distributivity fails at the infinities, so the statement is for entries that are
  (coercions of) reals, where every partial sum is again a real.
-/
import Mathlib

namespace LowRankChain

open Finset

/-- A finite sum of coerced reals is the coercion of the real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over ℝ: both bracketings are the triple sum. -/
theorem real_chain {M Q K : Type*} [Fintype M] [Fintype Q] [Fintype K]
    (x : M → ℝ) (R : Q → M → ℝ) (U : K → Q → ℝ) (C : K → ℝ) :
    ∑ r, (∑ q, (∑ m, x m * R q m) * U r q) * C r = ∑ m, x m * ∑ q, (∑ r, C r * U r q) * R q m := by
  have hl : ∑ r, (∑ q, (∑ m, x m * R q m) * U r q) * C r = ∑ r, ∑ q, ∑ m, x m * R q m * U r q * C r := by
    refine Finset.sum_congr rfl fun r _ => ?_
    rw [Finset.sum_mul]
    refine Finset.sum_congr rfl fun q _ => ?_
    rw [Finset.sum_mul, Finset.sum_mul]
  have hr : ∑ m, x m * ∑ q, (∑ r, C r * U r q) * R q m = ∑ m, ∑ q, ∑ r, x m * R q m * U r q * C r := by
    refine Finset.sum_congr rfl fun m _ => ?_
    rw [Finset.mul_sum]
    refine Finset.sum_congr rfl fun q _ => ?_
    rw [Finset.sum_mul, Finset.mul_sum]
    refine Finset.sum_congr rfl fun r _ => ?_
    ring
  rw [hl, hr]
  calc ∑ r, ∑ q, ∑ m, x m * R q m * U r q * C r
      = ∑ r, ∑ m, ∑ q, x m * R q m * U r q * C r := Finset.sum_congr rfl fun r _ => Finset.sum_comm
    _ = ∑ m, ∑ r, ∑ q, x m * R q m * U r q * C r := Finset.sum_comm
    _ = ∑ m, ∑ q, ∑ r, x m * R q m * U r q * C r := Finset.sum_congr rfl fun m _ => Finset.sum_comm

/-- The same on the extended reals, for entries that are coercions of reals. -/
theorem coe_chain {M Q K : Type*} [Fintype M] [Fintype Q] [Fintype K]
    (x : M → ℝ) (R : Q → M → ℝ) (U : K → Q → ℝ) (C : K → ℝ) :
    ∑ r, (∑ q, (∑ m, (x m : EReal) * (R q m : EReal)) * (U r q : EReal)) * (C r : EReal)
      = ∑ m, (x m : EReal) * ∑ q, (∑ r, (C r : EReal) * (U r q : EReal)) * (R q m : EReal) := by
  simp only [← EReal.coe_mul, ← coe_sum]
  exact congrArg _ (real_chain x R U C)

/-- The same for extended-real entries each known to be a real. -/
theorem chain_of_real {M Q K : Type*} [Fintype M] [Fintype Q] [Fintype K]
    (x : M → EReal) (R : Q → M → EReal) (U : K → Q → EReal) (C : K → EReal)
    (hx : ∀ m, ∃ a : ℝ, x m = a) (hR : ∀ q m, ∃ a : ℝ, R q m = a) (hU : ∀ r q, ∃ a : ℝ, U r q = a)
    (hC : ∀ r, ∃ a : ℝ, C r = a) :
    ∑ r, (∑ q, (∑ m, x m * R q m) * U r q) * C r = ∑ m, x m * ∑ q, (∑ r, C r * U r q) * R q m := by
  choose x' hx' using hx
  choose R' hR' using hR
  choose U' hU' using hU
  choose C' hC' using hC
  simp only [hx', hR', hU', hC']
  exact coe_chain x' R' U' C'

end LowRankChain
-- ==== Proof.Spec.lean ====
/-
  The result as one function of the four argument arrays, in the two bracketings the two programs use.

  With x : [2, 64, 8192], C : [8192, 64], U : [64, 64], R : [64, 8192] and an output index (b, s, n):
    `dense`     Σ_m x[b,s,m] · (Σ_q (Σ_r C[n,r] · U[r,q]) · R[q,m])     — W = (C·U)·R first, then x·Wᵀ;
    `factored`  Σ_r (Σ_q (Σ_m x[b,s,m] · R[q,m]) · U[r,q]) · C[n,r]     — ((x·Rᵀ)·Uᵀ)·Cᵀ, every intermediate of rank 64.
  On arrays of reals the two agree (LowRankChain.chain_of_real, at each output index).
-/
import Idealize.ShloMosaic.PureOps.Ideal
import Idealize.ShloMosaic.Lib.ValueIdx
import proofs.«156437_j34325378629967_2_alg».proof.Proof.LibLowRankChain

noncomputable section

namespace Cert.CurSpec

open Idealize.ShloMosaic Idealize.ShloMosaic.ValueIdx

abbrev SX : Shape := ⟨3, ![2, 64, 8192]⟩
abbrev SC : Shape := ⟨2, ![8192, 64]⟩
abbrev SU : Shape := ⟨2, ![64, 64]⟩
abbrev SR : Shape := ⟨2, ![64, 8192]⟩

/-- The dense-matrix bracketing at output index `i = (b, s, n)`. -/
def dense (x : SX.Idx → EReal) (C : SC.Idx → EReal) (U : SU.Idx → EReal) (R : SR.Idx → EReal) : SX.Idx → EReal :=
  fun i => ∑ m : Fin 8192, x (ix3 (i 0) (i 1) m) * ∑ q : Fin 64, (∑ r : Fin 64, C (ix2 (i 2) r) * U (ix2 r q)) * R (ix2 q m)

/-- The low-rank bracketing at output index `i = (b, s, n)`. -/
def factored (x : SX.Idx → EReal) (C : SC.Idx → EReal) (U : SU.Idx → EReal) (R : SR.Idx → EReal) : SX.Idx → EReal :=
  fun i => ∑ r : Fin 64, (∑ q : Fin 64, (∑ m : Fin 8192, x (ix3 (i 0) (i 1) m) * R (ix2 q m)) * U (ix2 r q)) * C (ix2 (i 2) r)

/-- On arrays of reals the two bracketings are one function. -/
theorem factored_eq_dense (x : SX.Idx → EReal) (C : SC.Idx → EReal) (U : SU.Idx → EReal) (R : SR.Idx → EReal)
    (hx : ∀ i, ∃ a : ℝ, x i = (a : EReal)) (hC : ∀ i, ∃ a : ℝ, C i = (a : EReal)) (hU : ∀ i, ∃ a : ℝ, U i = (a : EReal))
    (hR : ∀ i, ∃ a : ℝ, R i = (a : EReal)) : factored x C U R = dense x C U R := by
  funext i
  exact LowRankChain.chain_of_real (fun m : Fin 8192 => x (ix3 (i 0) (i 1) m)) (fun (q : Fin 64) (m : Fin 8192) => R (ix2 q m))
    (fun (r : Fin 64) (q : Fin 64) => U (ix2 r q)) (fun r : Fin 64 => C (ix2 (i 2) r))
    (fun m => hx _) (fun q m => hR _) (fun r q => hU _) (fun r => hC _)

end Cert.CurSpec

end
-- ==== Proof.RefValue.lean ====
/-
  The reference's result term is the dense-matrix bracketing.

  The reference is three host matrix products: C·U, then (C·U)·R, then x contracted with the rows of that dense matrix.
  Read at an output index (b, s, n), each is a sum over its one contracted axis; composing the three readings gives
  Σ_m x[b,s,m] · Σ_q (Σ_r C[n,r]·U[r,q]) · R[q,m].
-/
import proofs.«156437_j34325378629967_2_alg».proof.Proof.Gen.ReferenceIdeal.Read
import proofs.«156437_j34325378629967_2_alg».proof.Proof.Spec

noncomputable section

namespace Cert.ReferenceIdeal.RefValue

open Cert.ReferenceIdeal Cert.ReferenceIdeal.Read Idealize.ShloMosaic Idealize.ShloMosaic.ValueIdx

theorem result_is_dense (x0 : (⟨S2x64x8192, .f32⟩ : BufTy).Contents (Elt Ideal)) (x1 : (⟨S8192x64, .f32⟩ : BufTy).Contents (Elt Ideal))
    (x2 : (⟨S64x64, .f32⟩ : BufTy).Contents (Elt Ideal)) (x3 : (⟨S64x8192, .f32⟩ : BufTy).Contents (Elt Ideal)) :
    val_main_v2 (F := Ideal) x0 x1 x2 x3 = Cert.CurSpec.dense x0 x1 x2 x3 := by
  funext i
  have e0 : ∀ k : Fin 8192, lidx_main_v2 i k = ix3 (i 0) (i 1) k := fun k =>
    funext fun a => Fin.ext (by match a with | ⟨0, _⟩ => rfl | ⟨1, _⟩ => rfl | ⟨2, _⟩ => rfl)
  have e1 : ∀ (k : Fin 8192) (q : Fin 64), ridx_main_v1 (ridx_main_v2 i k) q = ix2 q k := fun k q =>
    funext fun a => Fin.ext (by match a with | ⟨0, _⟩ => rfl | ⟨1, _⟩ => rfl)
  have e2 : ∀ (k : Fin 8192) (q r : Fin 64), lidx_main_v0 (lidx_main_v1 (ridx_main_v2 i k) q) r = ix2 (i 2) r := fun k q r =>
    funext fun a => Fin.ext (by match a with | ⟨0, _⟩ => rfl | ⟨1, _⟩ => rfl)
  have e3 : ∀ (k : Fin 8192) (q r : Fin 64), ridx_main_v0 (lidx_main_v1 (ridx_main_v2 i k) q) r = ix2 r q := fun k q r =>
    funext fun a => Fin.ext (by match a with | ⟨0, _⟩ => rfl | ⟨1, _⟩ => rfl)
  rw [val_main_v2_apply]
  unfold Cert.CurSpec.dense
  refine Finset.sum_congr rfl fun k _ => ?_
  rw [val_main_v1_apply, e0]
  refine congrArg _ (Finset.sum_congr rfl fun q _ => ?_)
  rw [val_main_v0_apply, e1]
  refine congrArg (· * _) (Finset.sum_congr rfl fun r _ => ?_)
  rw [e2, e3]
  rfl

end Cert.ReferenceIdeal.RefValue

end
-- ==== Proof.KernelBody.lean ====
/-
  The two kernel bodies' arithmetic, read at an index on the extended reals.

  Every matrix product of the bodies contracts one axis of each operand into a zero accumulator, so at an output index
  it is the plain sum over that axis; the roundings to bf16 between the products are the identity on extended reals.
  The first body computes  t2[i, r] = Σ_q (Σ_m x[i, m] · R[q, m]) · U[r, q]  on the whole arrays;
  the second, per column block,  out[i, n] = Σ_r t2[i, r] · Ct[r, n].
-/
import proofs.«156437_j34325378629967_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## x · Rᵀ : contract the long axis of both operands -/

theorem lhs_xr_0 (j : S128x64.Idx) (q : dot_S128x8192_S64x8192_S128x64_1_1_0_0_n_n.contr.Idx) :
    (dot_S128x8192_S64x8192_S128x64_1_1_0_0_n_n.lhsIdx j q 0).val = (j 0).val := by
  unfold DotDims.lhsIdx
  rw [dif_neg (show ¬(0 : Fin S128x8192.rank) ∈ dot_S128x8192_S64x8192_S128x64_1_1_0_0_n_n.lhsBatch by decide), dif_pos (show (0 : Fin S128x8192.rank) ∈ dot_S128x8192_S64x8192_S128x64_1_1_0_0_n_n.lhsNonContracting by decide)]
  rfl
theorem lhs_xr_1 (j : S128x64.Idx) (q : dot_S128x8192_S64x8192_S128x64_1_1_0_0_n_n.contr.Idx) :
    (dot_S128x8192_S64x8192_S128x64_1_1_0_0_n_n.lhsIdx j q 1).val = (q ⟨0, by decide⟩).val :=
  dot_S128x8192_S64x8192_S128x64_1_1_0_0_n_n.lhsIdx_val_of_single rfl j q
theorem rhs_xr_0 (j : S128x64.Idx) (q : dot_S128x8192_S64x8192_S128x64_1_1_0_0_n_n.contr.Idx) :
    (dot_S128x8192_S64x8192_S128x64_1_1_0_0_n_n.rhsIdx j q 0).val = (j 1).val := by
  unfold DotDims.rhsIdx
  rw [dif_neg (show ¬(0 : Fin S64x8192.rank) ∈ dot_S128x8192_S64x8192_S128x64_1_1_0_0_n_n.rhsBatch by decide), dif_pos (show (0 : Fin S64x8192.rank) ∈ dot_S128x8192_S64x8192_S128x64_1_1_0_0_n_n.rhsNonContracting by decide)]
  rfl
theorem rhs_xr_1 (j : S128x64.Idx) (q : dot_S128x8192_S64x8192_S128x64_1_1_0_0_n_n.contr.Idx) :
    (dot_S128x8192_S64x8192_S128x64_1_1_0_0_n_n.rhsIdx j q 1).val = (q ⟨0, by decide⟩).val :=
  dot_S128x8192_S64x8192_S128x64_1_1_0_0_n_n.rhsIdx_val_of_single rfl j q
/-- The product into the zero accumulator, read at an index: the sum over the contracted axis. -/
theorem xr_apply (l : FVec Ideal S128x8192 .bf16) (r : FVec Ideal S64x8192 .bf16) (j : S128x64.Idx) :
    matmul dot_S128x8192_S64x8192_S128x64_1_1_0_0_n_n none l r (constant S128x64 .f32 0x00000000#32) j = ∑ k : Fin 8192, l (ix2 (j 0) k) * r (ix2 (j 1) k) := by
  show FloatOps.matmul dot_S128x8192_S64x8192_S128x64_1_1_0_0_n_n none l r (constant S128x64 .f32 0x00000000#32) j = _
  rw [Ideal.matmul_constant_zero_apply, ← Equiv.sum_comp (ValueIdx.contrEquiv1 dot_S128x8192_S64x8192_S128x64_1_1_0_0_n_n 8192 rfl rfl).symm]
  refine Finset.sum_congr rfl fun k _ => ?_
  have hk := ValueIdx.contrEquiv1_symm_val dot_S128x8192_S64x8192_S128x64_1_1_0_0_n_n 8192 rfl rfl k
  have el : dot_S128x8192_S64x8192_S128x64_1_1_0_0_n_n.lhsIdx j ((ValueIdx.contrEquiv1 dot_S128x8192_S64x8192_S128x64_1_1_0_0_n_n 8192 rfl rfl).symm k) = ix2 (j 0) k := funext fun a => Fin.ext (by
    match a with
    | ⟨0, _⟩ => exact lhs_xr_0 _ _
    | ⟨1, _⟩ => exact (lhs_xr_1 _ _).trans hk)
  have er : dot_S128x8192_S64x8192_S128x64_1_1_0_0_n_n.rhsIdx j ((ValueIdx.contrEquiv1 dot_S128x8192_S64x8192_S128x64_1_1_0_0_n_n 8192 rfl rfl).symm k) = ix2 (j 1) k := funext fun a => Fin.ext (by
    match a with
    | ⟨0, _⟩ => exact rhs_xr_0 _ _
    | ⟨1, _⟩ => exact (rhs_xr_1 _ _).trans hk)
  rw [el, er]
  rfl

/-! ## (x · Rᵀ) · Uᵀ : contract the second axis of both operands -/

theorem lhs_tu_0 (j : S128x64.Idx) (q : dot_S128x64_S64x64_S128x64_1_1_0_0_n_n.contr.Idx) :
    (dot_S128x64_S64x64_S128x64_1_1_0_0_n_n.lhsIdx j q 0).val = (j 0).val := by
  unfold DotDims.lhsIdx
  rw [dif_neg (show ¬(0 : Fin S128x64.rank) ∈ dot_S128x64_S64x64_S128x64_1_1_0_0_n_n.lhsBatch by decide), dif_pos (show (0 : Fin S128x64.rank) ∈ dot_S128x64_S64x64_S128x64_1_1_0_0_n_n.lhsNonContracting by decide)]
  rfl
theorem lhs_tu_1 (j : S128x64.Idx) (q : dot_S128x64_S64x64_S128x64_1_1_0_0_n_n.contr.Idx) :
    (dot_S128x64_S64x64_S128x64_1_1_0_0_n_n.lhsIdx j q 1).val = (q ⟨0, by decide⟩).val :=
  dot_S128x64_S64x64_S128x64_1_1_0_0_n_n.lhsIdx_val_of_single rfl j q
theorem rhs_tu_0 (j : S128x64.Idx) (q : dot_S128x64_S64x64_S128x64_1_1_0_0_n_n.contr.Idx) :
    (dot_S128x64_S64x64_S128x64_1_1_0_0_n_n.rhsIdx j q 0).val = (j 1).val := by
  unfold DotDims.rhsIdx
  rw [dif_neg (show ¬(0 : Fin S64x64.rank) ∈ dot_S128x64_S64x64_S128x64_1_1_0_0_n_n.rhsBatch by decide), dif_pos (show (0 : Fin S64x64.rank) ∈ dot_S128x64_S64x64_S128x64_1_1_0_0_n_n.rhsNonContracting by decide)]
  rfl
theorem rhs_tu_1 (j : S128x64.Idx) (q : dot_S128x64_S64x64_S128x64_1_1_0_0_n_n.contr.Idx) :
    (dot_S128x64_S64x64_S128x64_1_1_0_0_n_n.rhsIdx j q 1).val = (q ⟨0, by decide⟩).val :=
  dot_S128x64_S64x64_S128x64_1_1_0_0_n_n.rhsIdx_val_of_single rfl j q
/-- The product into the zero accumulator, read at an index: the sum over the contracted axis. -/
theorem tu_apply (l : FVec Ideal S128x64 .bf16) (r : FVec Ideal S64x64 .bf16) (j : S128x64.Idx) :
    matmul dot_S128x64_S64x64_S128x64_1_1_0_0_n_n none l r (constant S128x64 .f32 0x00000000#32) j = ∑ k : Fin 64, l (ix2 (j 0) k) * r (ix2 (j 1) k) := by
  show FloatOps.matmul dot_S128x64_S64x64_S128x64_1_1_0_0_n_n none l r (constant S128x64 .f32 0x00000000#32) j = _
  rw [Ideal.matmul_constant_zero_apply, ← Equiv.sum_comp (ValueIdx.contrEquiv1 dot_S128x64_S64x64_S128x64_1_1_0_0_n_n 64 rfl rfl).symm]
  refine Finset.sum_congr rfl fun k _ => ?_
  have hk := ValueIdx.contrEquiv1_symm_val dot_S128x64_S64x64_S128x64_1_1_0_0_n_n 64 rfl rfl k
  have el : dot_S128x64_S64x64_S128x64_1_1_0_0_n_n.lhsIdx j ((ValueIdx.contrEquiv1 dot_S128x64_S64x64_S128x64_1_1_0_0_n_n 64 rfl rfl).symm k) = ix2 (j 0) k := funext fun a => Fin.ext (by
    match a with
    | ⟨0, _⟩ => exact lhs_tu_0 _ _
    | ⟨1, _⟩ => exact (lhs_tu_1 _ _).trans hk)
  have er : dot_S128x64_S64x64_S128x64_1_1_0_0_n_n.rhsIdx j ((ValueIdx.contrEquiv1 dot_S128x64_S64x64_S128x64_1_1_0_0_n_n 64 rfl rfl).symm k) = ix2 (j 1) k := funext fun a => Fin.ext (by
    match a with
    | ⟨0, _⟩ => exact rhs_tu_0 _ _
    | ⟨1, _⟩ => exact (rhs_tu_1 _ _).trans hk)
  rw [el, er]
  rfl

/-! ## t2 · Ct on one column block : rows of the left against columns of the right -/

theorem lhs_tc_0 (j : S128x2048.Idx) (q : dot_S128x64_S64x2048_S128x2048_1_0_0_1_n_n.contr.Idx) :
    (dot_S128x64_S64x2048_S128x2048_1_0_0_1_n_n.lhsIdx j q 0).val = (j 0).val := by
  unfold DotDims.lhsIdx
  rw [dif_neg (show ¬(0 : Fin S128x64.rank) ∈ dot_S128x64_S64x2048_S128x2048_1_0_0_1_n_n.lhsBatch by decide), dif_pos (show (0 : Fin S128x64.rank) ∈ dot_S128x64_S64x2048_S128x2048_1_0_0_1_n_n.lhsNonContracting by decide)]
  rfl
theorem lhs_tc_1 (j : S128x2048.Idx) (q : dot_S128x64_S64x2048_S128x2048_1_0_0_1_n_n.contr.Idx) :
    (dot_S128x64_S64x2048_S128x2048_1_0_0_1_n_n.lhsIdx j q 1).val = (q ⟨0, by decide⟩).val :=
  dot_S128x64_S64x2048_S128x2048_1_0_0_1_n_n.lhsIdx_val_of_single rfl j q
theorem rhs_tc_0 (j : S128x2048.Idx) (q : dot_S128x64_S64x2048_S128x2048_1_0_0_1_n_n.contr.Idx) :
    (dot_S128x64_S64x2048_S128x2048_1_0_0_1_n_n.rhsIdx j q 0).val = (q ⟨0, by decide⟩).val :=
  dot_S128x64_S64x2048_S128x2048_1_0_0_1_n_n.rhsIdx_val_of_single rfl j q
theorem rhs_tc_1 (j : S128x2048.Idx) (q : dot_S128x64_S64x2048_S128x2048_1_0_0_1_n_n.contr.Idx) :
    (dot_S128x64_S64x2048_S128x2048_1_0_0_1_n_n.rhsIdx j q 1).val = (j 1).val := by
  unfold DotDims.rhsIdx
  rw [dif_neg (show ¬(1 : Fin S64x2048.rank) ∈ dot_S128x64_S64x2048_S128x2048_1_0_0_1_n_n.rhsBatch by decide), dif_pos (show (1 : Fin S64x2048.rank) ∈ dot_S128x64_S64x2048_S128x2048_1_0_0_1_n_n.rhsNonContracting by decide)]
  rfl
/-- The product into the zero accumulator, read at an index: the sum over the contracted axis. -/
theorem tc_apply (l : FVec Ideal S128x64 .bf16) (r : FVec Ideal S64x2048 .bf16) (j : S128x2048.Idx) :
    matmul dot_S128x64_S64x2048_S128x2048_1_0_0_1_n_n none l r (constant S128x2048 .f32 0x00000000#32) j = ∑ k : Fin 64, l (ix2 (j 0) k) * r (ix2 k (j 1)) := by
  show FloatOps.matmul dot_S128x64_S64x2048_S128x2048_1_0_0_1_n_n none l r (constant S128x2048 .f32 0x00000000#32) j = _
  rw [Ideal.matmul_constant_zero_apply, ← Equiv.sum_comp (ValueIdx.contrEquiv1 dot_S128x64_S64x2048_S128x2048_1_0_0_1_n_n 64 rfl rfl).symm]
  refine Finset.sum_congr rfl fun k _ => ?_
  have hk := ValueIdx.contrEquiv1_symm_val dot_S128x64_S64x2048_S128x2048_1_0_0_1_n_n 64 rfl rfl k
  have el : dot_S128x64_S64x2048_S128x2048_1_0_0_1_n_n.lhsIdx j ((ValueIdx.contrEquiv1 dot_S128x64_S64x2048_S128x2048_1_0_0_1_n_n 64 rfl rfl).symm k) = ix2 (j 0) k := funext fun a => Fin.ext (by
    match a with
    | ⟨0, _⟩ => exact lhs_tc_0 _ _
    | ⟨1, _⟩ => exact (lhs_tc_1 _ _).trans hk)
  have er : dot_S128x64_S64x2048_S128x2048_1_0_0_1_n_n.rhsIdx j ((ValueIdx.contrEquiv1 dot_S128x64_S64x2048_S128x2048_1_0_0_1_n_n 64 rfl rfl).symm k) = ix2 k (j 1) := funext fun a => Fin.ext (by
    match a with
    | ⟨0, _⟩ => exact (rhs_tc_0 _ _).trans hk
    | ⟨1, _⟩ => exact rhs_tc_1 _ _)
  rw [el, er]
  rfl

/-! ## The payloads -/

/-- The first body's stored value at (i, r): Σ_q (Σ_m x[i, m] · R[q, m]) · U[r, q]. -/
theorem reduce_payload (v0 : FVec Ideal S128x8192 .f32) (v3 : FVec Ideal S64x8192 .f32) (v7 : FVec Ideal S64x64 .f32) (j : S128x64.Idx) :
    k0_pay1 (F := Ideal) v0 v3 v7 j = ∑ q : Fin 64, (∑ m : Fin 8192, v0 (ix2 (j 0) m) * v3 (ix2 q m)) * v7 (ix2 (j 1) q) := by
  unfold k0_pay1
  rw [shapeCast_self]
  rw [truncf_apply, tu_apply]
  refine Finset.sum_congr rfl fun q _ => ?_
  rw [truncf_apply, truncf_apply, xr_apply]
  rfl

/-- The second body's stored value at (i, n) of its block: Σ_r t2[i, r] · Ct[r, n]. -/
theorem project_payload (v0 : FVec Ideal S128x64 .bf16) (v2 : FVec Ideal S64x2048 .bf16) (j : S128x2048.Idx) :
    k1_pay1 (F := Ideal) v0 v2 j = ∑ r : Fin 64, v0 (ix2 (j 0) r) * v2 (ix2 r (j 1)) := by
  unfold k1_pay1
  rw [shapeCast_self, shapeCast_self, tc_apply]

end Cert.KernelIdeal.Body

end
-- ==== Proof.Region0.lean ====
/-
  The first pallas_call: what its output array holds when it returns.

  Its grid has one point and every window's block is the whole array, so the one write-back is the body's value of the
  whole input arrays: the [128, 64] array ends at  t2[i, r] = Σ_q (Σ_m x[i, m] · R[q, m]) · U[r, q],  where x, R, U are
  the arrays the call finds in its three input windows.
-/
import proofs.«156437_j34325378629967_2_alg».proof.Proof.Gen.KernelIdeal.Frame
import proofs.«156437_j34325378629967_2_alg».proof.Proof.KernelBody

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- t2 = (x · Rᵀ) · Uᵀ, index by index. -/
def T2 (x : S128x8192.Idx → EReal) (R : S64x8192.Idx → EReal) (U : S64x64.Idx → EReal) : S128x64.Idx → EReal :=
  fun j => ∑ q : Fin 64, (∑ m : Fin 8192, x (ix2 (j 0) m) * R (ix2 q m)) * U (ix2 (j 1) q)

/-- Every window of the call sits at block (0, 0) at every point of its grid. -/
theorem block_index0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What a point writes back is its block of `T2` of the arrays the call finds. -/
theorem written0 (c : Dev nD) (t : Fin cfg0.N) :
    (dat0 V c).flushed 3 t = ((cfg0.win 3).blk t).view.read (Elt Ideal) (T2 (V c main_v0) (V c main_arg3) (V c main_arg2)) := by
  show (cfg0.win 3).cut (grid0.coords t) ((dat0 V c).after 3 t) = _
  rw [after0_3]
  unfold out0_3
  rw [View.canon_unit_zero zero_offsets]
  simp only [View.ld_unit_zero (S := S128x8192) zero_offsets, View.ld_unit_zero (S := S64x8192) zero_offsets,
    View.ld_unit_zero (S := S64x64) zero_offsets]
  obtain ⟨a00, a01, a10, a11, a20, a21, a30, a31⟩ := block_index0 t
  funext j
  show k0_pay1 (F := Ideal) (iblk0 V c 0 t) (iblk0 V c 1 t) (iblk0 V c 2 t) j
    = T2 (V c main_v0) (V c main_arg3) (V c main_arg2) (((cfg0.win 3).blk t).view.emb j)
  refine (Body.reduce_payload (iblk0 V c 0 t) (iblk0 V c 1 t) (iblk0 V c 2 t) j).trans ?_
  unfold T2
  -- each block read is the array read at the same row / column: a block's coordinate is index × size + the inner one
  have hx : ∀ m : Fin 8192, iblk0 V c 0 t (ix2 (j 0) m) = V c main_v0 (ix2 ((((cfg0.win 3).blk t).view.emb j) 0) m) := fun m => by
    show V c main_v0 (((cfg0.win 0).blk t).view.emb (ix2 (j 0) m)) = _
    refine congrArg (V c main_v0) (funext fun a => Fin.ext ?_)
    match a with
    | ⟨0, _⟩ => show win0_0.index t (0 : Fin 2) * 128 + 1 * (j 0).val = win0_3.index t (0 : Fin 2) * 128 + 1 * (j 0).val; omega
    | ⟨1, _⟩ => show win0_0.index t (1 : Fin 2) * 8192 + 1 * m.val = m.val; omega
  have hr : ∀ (q : Fin 64) (m : Fin 8192), iblk0 V c 1 t (ix2 q m) = V c main_arg3 (ix2 q m) := fun q m => by
    show V c main_arg3 (((cfg0.win 1).blk t).view.emb (ix2 q m)) = _
    refine congrArg (V c main_arg3) (funext fun a => Fin.ext ?_)
    match a with
    | ⟨0, _⟩ => show win0_1.index t (0 : Fin 2) * 64 + 1 * q.val = q.val; omega
    | ⟨1, _⟩ => show win0_1.index t (1 : Fin 2) * 8192 + 1 * m.val = m.val; omega
  have hu : ∀ q : Fin 64, iblk0 V c 2 t (ix2 (j 1) q) = V c main_arg2 (ix2 ((((cfg0.win 3).blk t).view.emb j) 1) q) := fun q => by
    show V c main_arg2 (((cfg0.win 2).blk t).view.emb (ix2 (j 1) q)) = _
    refine congrArg (V c main_arg2) (funext fun a => Fin.ext ?_)
    match a with
    | ⟨0, _⟩ => show win0_2.index t (0 : Fin 2) * 64 + 1 * (j 1).val = win0_3.index t (1 : Fin 2) * 64 + 1 * (j 1).val; omega
    | ⟨1, _⟩ => show win0_2.index t (1 : Fin 2) * 64 + 1 * q.val = q.val; omega
  refine Finset.sum_congr rfl fun q _ => ?_
  rw [hu q]
  refine congrArg (· * _) (Finset.sum_congr rfl fun m _ => ?_)
  rw [hx m, hr q m]

/-- An index of the output array is in a point's block iff each coordinate is in the block's range on its axis. -/
theorem mem_block0 (t : Fin cfg0.N) (i : S128x64.Idx) :
    i ∈ ((cfg0.win 3).blk t).view.set ↔ ∀ a : Fin 2, win0_3.index t a * S128x64.size a ≤ (i a).val ∧ (i a).val < win0_3.index t a * S128x64.size a + S128x64.size a := by
  show i ∈ ((View.whole main_v1).slice (win0_3.rect t)).set ↔ _
  rw [View.set_slice_whole, Rect.mem_set_unit]
  exact Iff.rfl

/-- The one block is the whole output array. -/
theorem covered0 (i : S128x64.Idx) : ∃ t : Fin cfg0.N, (cfg0.win 3).flush t = true ∧ i ∈ ((cfg0.win 3).blk t).view.set := by
  have hi0 : (i 0).val < 128 := (i 0).isLt
  have hi1 : (i 1).val < 64 := (i 1).isLt
  refine ⟨t0_0, flush0_3 _, ?_⟩
  rw [mem_block0]
  obtain ⟨-, -, -, -, -, -, a30, a31⟩ := block_index0 t0_0
  intro a
  match a with
  | ⟨0, _⟩ => show win0_3.index t0_0 (0 : Fin 2) * 128 ≤ (i 0).val ∧ (i 0).val < win0_3.index t0_0 (0 : Fin 2) * 128 + 128; omega
  | ⟨1, _⟩ => show win0_3.index t0_0 (1 : Fin 2) * 64 ≤ (i 1).val ∧ (i 1).val < win0_3.index t0_0 (1 : Fin 2) * 64 + 64; omega

/-- The output array when the call returns. -/
theorem array0 (c : Dev nD) : (dat0 V c).arrAt 3 cfg0.N = T2 (V c main_v0) (V c main_arg3) (V c main_arg2) :=
  (dat0 V c).arrAt_eq_of_cover 3 _ (fun t _ => written0 V c t) covered0

end Cert.KernelIdeal.KValue

end
-- ==== Proof.Region1.lean ====
/-
  The second pallas_call: what its output array holds when it returns.

  Its grid walks the four column blocks of width 2048 of the [128, 8192] output. At point t the body multiplies the
  whole [128, 64] left operand with columns 2048·t … 2048·t + 2047 of the [64, 8192] right operand, so the block written
  back is that block of  out[i, n] = Σ_r t2[i, r] · Ct[r, n].  The four blocks tile the output: column n lies in block
  n / 2048.
-/
import proofs.«156437_j34325378629967_2_alg».proof.Proof.Gen.KernelIdeal.Frame
import proofs.«156437_j34325378629967_2_alg».proof.Proof.KernelBody

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets1 : (![0, 0] : Fin 2 → Nat) = fun _ => 0 := funext fun a => by fin_cases a <;> rfl

/-- out = t2 · Ct, index by index. -/
def Proj (t2 : S128x64.Idx → EReal) (Ct : S64x8192.Idx → EReal) : S128x8192.Idx → EReal :=
  fun j => ∑ r : Fin 64, t2 (ix2 (j 0) r) * Ct (ix2 r (j 1))

/-- The left operand stays at block (0, 0); the right operand and the output move together along the columns. -/
theorem block_index1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- What point `t` writes back is its block of `Proj` of the arrays the call finds. -/
theorem written1 (c : Dev nD) (t : Fin cfg1.N) :
    (dat1 V c).flushed 2 t = ((cfg1.win 2).blk t).view.read (Elt Ideal) (Proj (V c main_v1) (V c main_v3)) := by
  show (cfg1.win 2).cut (grid1.coords t) ((dat1 V c).after 2 t) = _
  rw [after1_2]
  unfold out1_2
  rw [View.canon_unit_zero zero_offsets1]
  simp only [View.ld_unit_zero (S := S128x64) zero_offsets1, View.ld_unit_zero (S := S64x2048) zero_offsets1]
  obtain ⟨a00, a01, a10, a11, a20, a21⟩ := block_index1 t
  funext j
  show k1_pay1 (F := Ideal) (iblk1 V c 0 t) (iblk1 V c 1 t) j
    = Proj (V c main_v1) (V c main_v3) (((cfg1.win 2).blk t).view.emb j)
  refine (Body.project_payload (iblk1 V c 0 t) (iblk1 V c 1 t) j).trans ?_
  unfold Proj
  refine Finset.sum_congr rfl fun r _ => ?_
  have hl : iblk1 V c 0 t (ix2 (j 0) r) = V c main_v1 (ix2 ((((cfg1.win 2).blk t).view.emb j) 0) r) := by
    show V c main_v1 (((cfg1.win 0).blk t).view.emb (ix2 (j 0) r)) = _
    refine congrArg (V c main_v1) (funext fun a => Fin.ext ?_)
    match a with
    | ⟨0, _⟩ => show win1_0.index t (0 : Fin 2) * 128 + 1 * (j 0).val = win1_2.index t (0 : Fin 2) * 128 + 1 * (j 0).val; omega
    | ⟨1, _⟩ => show win1_0.index t (1 : Fin 2) * 64 + 1 * r.val = r.val; omega
  have hc : iblk1 V c 1 t (ix2 r (j 1)) = V c main_v3 (ix2 r ((((cfg1.win 2).blk t).view.emb j) 1)) := by
    show V c main_v3 (((cfg1.win 1).blk t).view.emb (ix2 r (j 1))) = _
    refine congrArg (V c main_v3) (funext fun a => Fin.ext ?_)
    match a with
    | ⟨0, _⟩ => show win1_1.index t (0 : Fin 2) * 64 + 1 * r.val = r.val; omega
    | ⟨1, _⟩ => show win1_1.index t (1 : Fin 2) * 2048 + 1 * (j 1).val = win1_2.index t (1 : Fin 2) * 2048 + 1 * (j 1).val; omega
  rw [hl, hc]

/-- An index of the output array is in point `t`'s block iff each coordinate is in the block's range on its axis. -/
theorem mem_block1 (t : Fin cfg1.N) (i : S128x8192.Idx) :
    i ∈ ((cfg1.win 2).blk t).view.set ↔ ∀ a : Fin 2, win1_2.index t a * S128x2048.size a ≤ (i a).val ∧ (i a).val < win1_2.index t a * S128x2048.size a + S128x2048.size a := by
  show i ∈ ((View.whole main_v4).slice (win1_2.rect t)).set ↔ _
  rw [View.set_slice_whole, Rect.mem_set_unit]
  exact Iff.rfl

/-- The four column blocks tile the output: column n is in block n / 2048. -/
theorem covered1 (i : S128x8192.Idx) : ∃ t : Fin cfg1.N, (cfg1.win 2).flush t = true ∧ i ∈ ((cfg1.win 2).blk t).view.set := by
  have hi0 : (i 0).val < 128 := (i 0).isLt
  have hi1 : (i 1).val < 8192 := (i 1).isLt
  have hN : cfg1.N = 4 := N_1
  obtain ⟨t, ht⟩ : ∃ t : Fin cfg1.N, t.val = (i 1).val / 2048 := ⟨⟨(i 1).val / 2048, by omega⟩, rfl⟩
  refine ⟨t, flush1_2 t, ?_⟩
  rw [mem_block1]
  obtain ⟨-, -, -, -, a20, a21⟩ := block_index1 t
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 2048 ≤ (i 1).val ∧ (i 1).val < win1_2.index t (1 : Fin 2) * 2048 + 2048; omega

/-- The output array when the call returns. -/
theorem array1 (c : Dev nD) : (dat1 V c).arrAt 2 cfg1.N = Proj (V c main_v1) (V c main_v3) :=
  (dat1 V c).arrAt_eq_of_cover 2 _ (fun t _ => written1 V c t) covered1

end Cert.KernelIdeal.KValue

end
-- ==== Proof.KernelValue.lean ====
/-
  The kernel program's result array as one function of the four argument arrays.

  Between the launch and the return the program does, in order: reshape x to [128, 8192]; the first pallas_call
  (t2 = (x · Rᵀ) · Uᵀ on the whole arrays); transpose C and round it to bf16 (the identity on extended reals); the second
  pallas_call (out = t2 · Ct, column block by column block); reshape the [128, 8192] output back to [2, 64, 8192].
  Reading each step at an index and composing them gives, at (b, s, n),
      Σ_r (Σ_q (Σ_m x[b,s,m] · R[q,m]) · U[r,q]) · C[n,r]
  — row 64·b + s of the reshaped arrays is row (b, s), and Ct[r, n] is C[n, r].
-/
import proofs.«156437_j34325378629967_2_alg».proof.Proof.Gen.KernelIdeal.Frame
import proofs.«156437_j34325378629967_2_alg».proof.Proof.Region0
import proofs.«156437_j34325378629967_2_alg».proof.Proof.Region1
import proofs.«156437_j34325378629967_2_alg».proof.Proof.Spec
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat Cfg Window)

/-! ## The host steps as functions -/

/-- x viewed as [128, 8192]. -/
def flattenRows (x : (⟨S2x64x8192, .f32⟩ : BufTy).Contents (Elt Ideal)) : (⟨S128x8192, .f32⟩ : BufTy).Contents (Elt Ideal) :=
  shapeCast S128x8192 x shapeCasts_S2x64x8192_S128x8192

/-- Cᵀ, rounded to bf16. -/
def transposedC (C : (⟨S8192x64, .f32⟩ : BufTy).Contents (Elt Ideal)) : (⟨S64x8192, .bf16⟩ : BufTy).Contents (Elt Ideal) :=
  truncf (F := Ideal) .bf16 (transpose S64x8192 [1, 0] C transposes_S8192x64_S64x8192_1_0) bitsLt_bf16_f32

/-- The [128, 8192] output viewed as [2, 64, 8192]. -/
def splitRows (o : (⟨S128x8192, .f32⟩ : BufTy).Contents (Elt Ideal)) : (⟨S2x64x8192, .f32⟩ : BufTy).Contents (Elt Ideal) :=
  shapeCast S2x64x8192 o shapeCasts_S128x8192_S2x64x8192

/-- The whole program's result term. -/
def resultTerm (x : (⟨S2x64x8192, .f32⟩ : BufTy).Contents (Elt Ideal)) (C : (⟨S8192x64, .f32⟩ : BufTy).Contents (Elt Ideal))
    (U : (⟨S64x64, .f32⟩ : BufTy).Contents (Elt Ideal)) (R : (⟨S64x8192, .f32⟩ : BufTy).Contents (Elt Ideal)) :
    (⟨S2x64x8192, .f32⟩ : BufTy).Contents (Elt Ideal) :=
  splitRows (Proj (T2 (flattenRows x) R U) (transposedC C))

/-! ## The result term at an index -/

/-- Row 64·b + s of the flattened x is row (b, s) of x. -/
theorem flattenRows_apply (x : (⟨S2x64x8192, .f32⟩ : BufTy).Contents (Elt Ideal)) (b : Fin 2) (s : Fin 64) (p : Fin 128)
    (hp : p.val = b.val * 64 + s.val) (k : Fin 8192) : flattenRows x (ix2 p k) = x (ix3 b s k) := by
  unfold flattenRows
  refine shapeCast_apply x _ (ix2 p k) (ix3 b s k) ?_
  rw [Shape.rowMajor_val_two, Shape.rowMajor_val_three]
  show (b.val * 64 + s.val) * 8192 + k.val = p.val * 8192 + k.val
  rw [hp]

/-- Ct[r, n] is C[n, r]. -/
theorem transposedC_apply (C : (⟨S8192x64, .f32⟩ : BufTy).Contents (Elt Ideal)) (r : Fin 64) (n : Fin 8192) :
    transposedC C (ix2 r n) = C (ix2 n r) := by
  unfold transposedC
  rw [truncf_apply]
  exact transpose_apply [1, 0] C transposes_S8192x64_S64x8192_1_0 (ix2 r n) (ix2 n r) (fun a => by
    match a with
    | ⟨0, _⟩ => rfl
    | ⟨1, _⟩ => rfl)

/-- The result term is the low-rank bracketing of the four argument arrays. -/
theorem resultTerm_eq_factored (x : (⟨S2x64x8192, .f32⟩ : BufTy).Contents (Elt Ideal)) (C : (⟨S8192x64, .f32⟩ : BufTy).Contents (Elt Ideal))
    (U : (⟨S64x64, .f32⟩ : BufTy).Contents (Elt Ideal)) (R : (⟨S64x8192, .f32⟩ : BufTy).Contents (Elt Ideal)) :
    resultTerm x C U R = Cert.CurSpec.factored x C U R := by
  funext i
  have h0 : (i 0).val < 2 := (i 0).isLt
  have h1 : (i 1).val < 64 := (i 1).isLt
  obtain ⟨p, hp⟩ : ∃ p : Fin 128, p.val = (i 0).val * 64 + (i 1).val := ⟨⟨(i 0).val * 64 + (i 1).val, by omega⟩, rfl⟩
  have hrow : resultTerm x C U R i = Proj (T2 (flattenRows x) R U) (transposedC C) (ix2 p (i 2)) := by
    unfold resultTerm splitRows
    refine shapeCast_apply _ _ i (ix2 p (i 2)) ?_
    rw [Shape.rowMajor_val_two, Shape.rowMajor_val_three]
    show p.val * 8192 + (i 2).val = ((i 0).val * 64 + (i 1).val) * 8192 + (i 2).val
    rw [hp]
  rw [hrow]
  show ∑ r : Fin 64, T2 (flattenRows x) R U (ix2 p r) * transposedC C (ix2 r (i 2)) = _
  unfold Cert.CurSpec.factored
  refine Finset.sum_congr rfl fun r _ => ?_
  refine congrArg₂ (· * ·) ?_ (transposedC_apply C r (i 2))
  show ∑ q : Fin 64, (∑ k : Fin 8192, flattenRows x (ix2 p k) * R (ix2 q k)) * U (ix2 r q) = _
  refine Finset.sum_congr rfl fun q _ => ?_
  refine congrArg (· * _) (Finset.sum_congr rfl fun k _ => ?_)
  exact congrArg (· * _) (flattenRows_apply x (i 0) (i 1) p hp k)

/-! ## The buffers at the segment boundaries -/

variable (m : (ℓ : Loc nD τ sig) → Buf (Elt Ideal) ℓ) (ρ : Dev nD → PrngReg)

theorem entry0_x (c : Dev nD) : V1 m ρ c main_v0 = flattenRows (m ((c : Thread nD τ).loc main_arg0)) := by
  show StableHlo.after hostOps0 (W0 m ρ c) (Proc.devRef .tc main_v0) = _
  after_results
  rfl

theorem entry0_R (c : Dev nD) : V1 m ρ c main_arg3 = m ((c : Thread nD τ).loc main_arg3) := by
  show StableHlo.after hostOps0 (W0 m ρ c) (Proc.devRef .tc main_arg3) = _
  after_results

theorem entry0_U (c : Dev nD) : V1 m ρ c main_arg2 = m ((c : Thread nD τ).loc main_arg2) := by
  show StableHlo.after hostOps0 (W0 m ρ c) (Proc.devRef .tc main_arg2) = _
  after_results

theorem entry0_C (c : Dev nD) : W1 m ρ c (Proc.devRef .tc main_arg1) = m ((c : Thread nD τ).loc main_arg1) := by
  show StableHlo.after hostOps0 (W0 m ρ c) (Proc.devRef .tc main_arg1) = _
  after_results

theorem entry1_t2 (c : Dev nD) : V3 m ρ c main_v1 = (dat0 (V1 m ρ) c).arrAt 3 cfg0.N := by
  show StableHlo.after hostOps1 (W2 m ρ c) (Proc.devRef .tc main_v1) = _
  after_results
  exact W2_arr m ρ c 3

theorem entry1_Ct (c : Dev nD) : V3 m ρ c main_v3 = transposedC (m ((c : Thread nD τ).loc main_arg1)) := by
  show StableHlo.after hostOps1 (W2 m ρ c) (Proc.devRef .tc main_v3) = _
  after_results
  rw [W2_of_ne m ρ c main_arg1 (by decide), entry0_C]
  rfl

theorem exit_out (c : Dev nD) : W5 m ρ c (Proc.devRef .tc main_v5) = splitRows ((dat1 (V3 m ρ) c).arrAt 2 cfg1.N) := by
  show StableHlo.after hostOps2 (W4 m ρ c) (Proc.devRef .tc main_v5) = _
  after_results
  rw [W4_arr m ρ c 2]
  rfl

/-- The result array at the last boundary is the result term of the launch contents of the arguments. -/
theorem result_is_term (c : Dev nD) :
    W5 m ρ c (Proc.devRef .tc main_v5) = resultTerm (m ((c : Thread nD τ).loc main_arg0)) (m ((c : Thread nD τ).loc main_arg1))
      (m ((c : Thread nD τ).loc main_arg2)) (m ((c : Thread nD τ).loc main_arg3)) := by
  rw [exit_out, array1, entry1_t2, array0, entry0_x, entry0_R, entry0_U, entry1_Ct]
  rfl

end Cert.KernelIdeal.KValue

end
-- ==== Proof.lean ====
/-
  A rank-64 factored linear map applied two ways.

  The arguments are x : [2, 64, 8192], C : [8192, 64], U : [64, 64], R : [64, 8192], all finite. The reference builds the
  dense matrix W = (C · U) · R and contracts x with its rows:  out[b,s,n] = Σ_m x[b,s,m] · W[n,m].  The kernel never forms
  W: one pallas_call computes t2 = (x · Rᵀ) · Uᵀ on the rows flattened to [128, 8192], a second multiplies t2 with Cᵀ one
  block of 2048 columns at a time. On extended reals the roundings to bf16 are the identity and every matrix product is
  the plain sum over its contracted axis, so the kernel's result at (b, s, n) is
      Σ_r (Σ_q (Σ_m x[b,s,m] · R[q,m]) · U[r,q]) · C[n,r]
  and the reference's is
      Σ_m x[b,s,m] · (Σ_q (Σ_r C[n,r] · U[r,q]) · R[q,m]).
  Both are the triple sum Σ_{m,q,r} x·R·U·C. The step between them is distributivity, which fails at the infinities of
  the extended reals; the precondition makes every entry a real, where it holds (Proof/LibLowRankChain.lean).

  The modules: Finite (the precondition read back: every entry is a real), Spec (the two bracketings and their equality on
  reals), RefValue (the reference's three products read at an index: the dense bracketing), KernelBody (the two bodies'
  products read at an index), Region0 / Region1 (what each call's output array holds when it returns: one whole block;
  four column blocks that tile the output), KernelRun (the program's run with the result array in its post), KernelValue
  (the host reshapes and the transpose read at an index, and the composition: the low-rank bracketing).
  The idealization rewrote nothing, so the kernel's idealized program is its own text read on extended reals.
-/
import proofs.«156437_j34325378629967_2_alg».proof.Defs
import proofs.«156437_j34325378629967_2_alg».proof.Proof.Gen.Kernel
import proofs.«156437_j34325378629967_2_alg».proof.Proof.Gen.Kernel.Skeleton
import proofs.«156437_j34325378629967_2_alg».proof.Proof.Gen.Kernel.Launch
import proofs.«156437_j34325378629967_2_alg».proof.Proof.Gen.Kernel.Points
import proofs.«156437_j34325378629967_2_alg».proof.Proof.Gen.Kernel.Frame
import proofs.«156437_j34325378629967_2_alg».proof.Proof.Gen.KernelIdeal
import proofs.«156437_j34325378629967_2_alg».proof.Proof.Gen.KernelIdeal.Skeleton
import proofs.«156437_j34325378629967_2_alg».proof.Proof.Gen.KernelIdeal.Launch
import proofs.«156437_j34325378629967_2_alg».proof.Proof.Gen.KernelIdeal.Points
import proofs.«156437_j34325378629967_2_alg».proof.Proof.Gen.KernelIdeal.Frame
import proofs.«156437_j34325378629967_2_alg».proof.Proof.Gen.ReferenceIdeal
import proofs.«156437_j34325378629967_2_alg».proof.Proof.Gen.Pre_finite_inputs
import proofs.«156437_j34325378629967_2_alg».proof.Proof.Gen.ReferenceIdeal.Run
import proofs.«156437_j34325378629967_2_alg».proof.Proof.Gen.ReferenceIdeal.Read
import proofs.«156437_j34325378629967_2_alg».proof.Proof.Finite
import proofs.«156437_j34325378629967_2_alg».proof.Proof.Spec
import proofs.«156437_j34325378629967_2_alg».proof.Proof.RefValue
import proofs.«156437_j34325378629967_2_alg».proof.Proof.KernelRun
import proofs.«156437_j34325378629967_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the dense bracketing of the launch contents of the arguments: the reference by reading its three
    products at an index; the kernel at the low-rank bracketing, which is the dense one because every entry is a real. -/
theorem algebraic : Cert.algebraic_KernelIdeal_ReferenceIdeal := by
  intro m ρ m' ρ' hpre hagree
  refine ⟨fun c => Cert.CurSpec.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.GenP.run_result (F := Ideal) m ρ)
    rw [Cert.KernelIdeal.KValue.result_is_term, Cert.KernelIdeal.KValue.resultTerm_eq_factored]
    obtain ⟨h0, h1, h2, h3⟩ := Cert.FiniteArgs.real_entries _ _ _ _ (hpre c)
    exact Cert.CurSpec.factored_eq_dense _ _ _ _ h0 h1 h2 h3
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v2_eq, Cert.ReferenceIdeal.RefValue.result_is_dense,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
